-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_1)) (v1 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_1) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64x256 : Shape := ⟨3, ![2048, 64, 256]⟩
abbrev S2048x64 : Shape := ⟨2, ![2048, 64]⟩
abbrev S256x16384 : Shape := ⟨2, ![256, 16384]⟩
abbrev S256 : Shape := ⟨1, ![256]⟩
abbrev S_ : Shape := ⟨0, ![]⟩

class Facts : Prop where
  bcast_S_S2048x64x256 : S_.BroadcastsInDim S2048x64x256 (![] : Fin 0 → Fin S2048x64x256.rank)
  reducesTo_S2048x64x256_S_d0_1_2 : S2048x64x256.ReducesTo [0, 1, 2] S_
  h_S_ : 0 < S_.numel
  bcast_S_S256x16384 : S_.BroadcastsInDim S256x16384 (![] : Fin 0 → Fin S256x16384.rank)
  reducesTo_S256x16384_S_d0_1 : S256x16384.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_v13 : IVec S_ 1) (main_v16 : IVec S256x16384 1) : IVec S_ 1 :=
  let main_c_5 : IVec S_ 1 := constantI S_ 1 1#1
  let main_v17 : IVec S_ 1 := (fun x v => Host.reduce IntOp.andi x v reducesTo_S256x16384_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S2048x64x256 .f32) (main_arg1 : FVec F S2048x64x256 .f32) (main_arg2 : FVec F S2048x64x256 .f32) (main_arg3 : IVec S2048x64 32) (main_arg4 : FVec F S256x16384 .f32) (main_arg5 : FVec F S256 .f32) : IVec S_ 1 :=
  let main_v0 : FVec F S2048x64x256 .f32 := Host.absf main_arg0
  let main_cst : FVec F S_ .f32 := constant S_ .f32 0x7F800000#32
  let main_v1 : FVec F S2048x64x256 .f32 := broadcastInDim S2048x64x256 ![] bcast_S_S2048x64x256 main_cst
  let main_v2 : IVec S2048x64x256 1 := cmpf .olt main_v0 main_v1
  let main_c : IVec S_ 1 := constantI S_ 1 1#1
  let main_v3 : IVec S_ 1 := (fun x v => Host.reduce IntOp.andi x v reducesTo_S2048x64x256_S_d0_1_2 h_S_) main_v2 main_c
  let main_v4 : FVec F S2048x64x256 .f32 := Host.absf main_arg1
  let main_cst_0 : FVec F S_ .f32 := constant S_ .f32 0x7F800000#32
  let main_v5 : FVec F S2048x64x256 .f32 := broadcastInDim S2048x64x256 ![] bcast_S_S2048x64x256 main_cst_0
  let main_v6 : IVec S2048x64x256 1 := cmpf .olt main_v4 main_v5
  let main_c_1 : IVec S_ 1 := constantI S_ 1 1#1
  let main_v7 : IVec S_ 1 := (fun x v => Host.reduce IntOp.andi x v reducesTo_S2048x64x256_S_d0_1_2 h_S_) main_v6 main_c_1
  let main_v8 : IVec S_ 1 := andi main_v3 main_v7
  let main_v9 : FVec F S2048x64x256 .f32 := Host.absf main_arg2
  let main_cst_2 : FVec F S_ .f32 := constant S_ .f32 0x7F800000#32
  let main_v10 : FVec F S2048x64x256 .f32 := broadcastInDim S2048x64x256 ![] bcast_S_S2048x64x256 main_cst_2
  let main_v11 : IVec S2048x64x256 1 := cmpf .olt main_v9 main_v10
  let main_c_3 : IVec S_ 1 := constantI S_ 1 1#1
  let main_v12 : IVec S_ 1 := (fun x v => Host.reduce IntOp.andi x v reducesTo_S2048x64x256_S_d0_1_2 h_S_) main_v11 main_c_3
  let main_v13 : IVec S_ 1 := andi main_v8 main_v12
  let main_v14 : FVec F S256x16384 .f32 := Host.absf main_arg4
  let main_cst_4 : FVec F S_ .f32 := constant S_ .f32 0x7F800000#32
  let main_v15 : FVec F S256x16384 .f32 := broadcastInDim S256x16384 ![] bcast_S_S256x16384 main_cst_4
  let main_v16 : IVec S256x16384 1 := cmpf .olt main_v14 main_v15
  fn_part1 (F := F) main_arg5 main_v13 main_v16
-- ==== Kernel.lean ====
abbrev S2048x64x256 : Shape := ⟨3, ![2048, 64, 256]⟩
abbrev S2048x64 : Shape := ⟨2, ![2048, 64]⟩
abbrev S256x16384 : Shape := ⟨2, ![256, 16384]⟩
abbrev S256 : Shape := ⟨1, ![256]⟩
abbrev S2048x256 : Shape := ⟨2, ![2048, 256]⟩
abbrev S16x64x256 : Shape := ⟨3, ![16, 64, 256]⟩
abbrev S16x256 : Shape := ⟨2, ![16, 256]⟩
abbrev S16x64x64 : Shape := ⟨3, ![16, 64, 64]⟩
abbrev S16x64 : Shape := ⟨2, ![16, 64]⟩
abbrev S16x64x1 : Shape := ⟨3, ![16, 64, 1]⟩
abbrev S16x16384 : Shape := ⟨2, ![16, 16384]⟩
abbrev S1x256 : Shape := ⟨2, ![1, 256]⟩

abbrev nBuf : Space → Nat
  | .hbm => 9
  | .vmem => 12
  | .smem => 0
  | _ => 0

abbrev bufTy : (tb : Table) → Fin (tcTables nBuf tb) → BufTy
  | .hbm, ⟨0, _⟩ => ⟨S2048x64x256, .f32⟩
  | .hbm, ⟨1, _⟩ => ⟨S2048x64x256, .f32⟩
  | .hbm, ⟨2, _⟩ => ⟨S2048x64x256, .f32⟩
  | .hbm, ⟨3, _⟩ => ⟨S2048x64, .i32⟩
  | .hbm, ⟨4, _⟩ => ⟨S256x16384, .f32⟩
  | .hbm, ⟨5, _⟩ => ⟨S256, .f32⟩
  | .hbm, ⟨6, _⟩ => ⟨S256x16384, .bf16⟩
  | .hbm, ⟨7, _⟩ => ⟨S2048x64x256, .f32⟩
  | .hbm, ⟨8, _⟩ => ⟨S2048x256, .f32⟩
  | .local _ .vmem, ⟨0, _⟩ => ⟨S16x64x256, .f32⟩
  | .local _ .vmem, ⟨1, _⟩ => ⟨S16x64x256, .f32⟩
  | .local _ .vmem, ⟨2, _⟩ => ⟨S16x64x256, .f32⟩
  | .local _ .vmem, ⟨3, _⟩ => ⟨S16x64x256, .f32⟩
  | .local _ .vmem, ⟨4, _⟩ => ⟨S16x64x256, .f32⟩
  | .local _ .vmem, ⟨5, _⟩ => ⟨S16x64x256, .f32⟩
  | .local _ .vmem, ⟨6, _⟩ => ⟨S256x16384, .bf16⟩
  | .local _ .vmem, ⟨7, _⟩ => ⟨S256, .f32⟩
  | .local _ .vmem, ⟨8, _⟩ => ⟨S16x64x256, .f32⟩
  | .local _ .vmem, ⟨9, _⟩ => ⟨S16x64x256, .f32⟩
  | .local _ .vmem, ⟨10, _⟩ => ⟨S16x256, .f32⟩
  | .local _ .vmem, ⟨11, _⟩ => ⟨S16x256, .f32⟩
  | _, _ => ⟨S2048x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x16384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  inb_S16x64x256_S16x64x256_0_0_0 : ∀ a, (![0, 0, 0] : Fin 3 → Nat) a + S16x64x256.size a ≤ S16x64x256.size a
  h_S16x64x256 : 0 < S16x64x256.numel
  reduces_S16x64x64_S16x64 : S16x64x64.Reduces [2] S16x64
  shapeCasts_S16x64_S16x64x1 : S16x64.ShapeCasts S16x64x1
  broadcasts_S16x64x1_S16x64x64 : S16x64x1.Broadcasts S16x64x64
  shapeCasts_S16x64x256_S16x16384 : S16x64x256.ShapeCasts S16x16384
  inb_S256x16384_S256x16384_0_0 : ∀ a, (![0, 0] : Fin 2 → Nat) a + S256x16384.size a ≤ S256x16384.size a
  h_S256x16384 : 0 < S256x16384.numel
  shapeCasts_S256x16384_S256x16384 : S256x16384.ShapeCasts S256x16384
  inb_S256_S256_0 : ∀ a, (![0] : Fin 1 → Nat) a + S256.size a ≤ S256.size a
  h_S256 : 0 < S256.numel
  shapeCasts_S256_S1x256 : S256.ShapeCasts S1x256
  broadcasts_S1x256_S16x256 : S1x256.Broadcasts S16x256
  inb_S16x256_S16x256_0_0 : ∀ a, (![0, 0] : Fin 2 → Nat) a + S16x256.size a ≤ S16x256.size a
  h_S16x256 : 0 < S16x256.numel
  dot_S16x64x256_S16x64x256_S16x64x64_2_2_1_1_0_0_wf : DotDims.WF S16x64x256 S16x64x256 S16x64x64 [2] [2] [1] [1] [0] [0]
  dot_S16x64x64_S16x64x256_S16x64x256_2_1_1_2_0_0_wf : DotDims.WF S16x64x64 S16x64x256 S16x64x256 [2] [1] [1] [2] [0] [0]
  dot_S16x16384_S256x16384_S16x256_1_1_0_0_n_n_wf : DotDims.WF S16x16384 S256x16384 S16x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x256.size a ≤ S2048x64x256.size a
  hwx0_0 : ∀ i : grid0.Coords, EltTy.bits .f32 = 32 ∨ (Rect.block (s := S2048x64x256) S16x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x64x256.size a ≤ S2048x64x256.size a
  hwx0_1 : ∀ i : grid0.Coords, EltTy.bits .f32 = 32 ∨ (Rect.block (s := S2048x64x256) S16x64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x64x256.size a ≤ S2048x64x256.size a
  hwx0_2 : ∀ i : grid0.Coords, EltTy.bits .f32 = 32 ∨ (Rect.block (s := S2048x64x256) S16x64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x16384.size a ≤ S256x16384.size a
  hwx0_3 : ∀ i : grid0.Coords, EltTy.bits .bf16 = 32 ∨ (Rect.block (s := S256x16384) S256x16384.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x64x256.size a ≤ S2048x64x256.size a
  hwx0_5 : ∀ i : grid0.Coords, EltTy.bits .f32 = 32 ∨ (Rect.block (s := S2048x64x256) S16x64x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x256.size a ≤ S2048x256.size a
  hwx0_6 : ∀ i : grid0.Coords, EltTy.bits .f32 = 32 ∨ (Rect.block (s := S2048x256) S16x256.size (cc0_transform_6 i) (hinb0_6 i)).WholeWords (EltTy.packing .f32)

variable [Facts₀]

def dot_S16x64x256_S16x64x256_S16x64x64_2_2_1_1_0_0 : DotDims S16x64x256 S16x64x256 S16x64x64 where
  lhsContracting := [2]
  rhsContracting := [2]
  lhsNonContracting := [1]
  rhsNonContracting := [1]
  lhsBatch := [0]
  rhsBatch := [0]
  wf := dot_S16x64x256_S16x64x256_S16x64x64_2_2_1_1_0_0_wf
def dot_S16x64x64_S16x64x256_S16x64x256_2_1_1_2_0_0 : DotDims S16x64x64 S16x64x256 S16x64x256 where
  lhsContracting := [2]
  rhsContracting := [1]
  lhsNonContracting := [1]
  rhsNonContracting := [2]
  lhsBatch := [0]
  rhsBatch := [0]
  wf := dot_S16x64x64_S16x64x256_S16x64x256_2_1_1_2_0_0_wf
def dot_S16x16384_S256x16384_S16x256_1_1_0_0_n_n : DotDims S16x16384 S256x16384 S16x256 where
  lhsContracting := [1]
  rhsContracting := [1]
  lhsNonContracting := [0]
  rhsNonContracting := [0]
  lhsBatch := []
  rhsBatch := []
  wf := dot_S16x16384_S256x16384_S16x256_1_1_0_0_n_n_wf

abbrev win0_0 : Pipeline.Window sig grid0 :=
  Pipeline.Window.ofSpec (Memref.whole main_arg2) S16x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S16x64x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x16384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S16x64x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S16x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2048x64x256 : Shape := ⟨3, ![2048, 64, 256]⟩
abbrev S2048x64 : Shape := ⟨2, ![2048, 64]⟩
abbrev S256x16384 : Shape := ⟨2, ![256, 16384]⟩
abbrev S256 : Shape := ⟨1, ![256]⟩
abbrev S2048x8x8x256 : Shape := ⟨4, ![2048, 8, 8, 256]⟩
abbrev S2048x64x64 : Shape := ⟨3, ![2048, 64, 64]⟩
abbrev S_ : Shape := ⟨0, ![]⟩
abbrev S2048x64x1 : Shape := ⟨3, ![2048, 64, 1]⟩
abbrev S2048x16384 : Shape := ⟨2, ![2048, 16384]⟩
abbrev S16384x256 : Shape := ⟨2, ![16384, 256]⟩
abbrev S2048x256 : Shape := ⟨2, ![2048, 256]⟩
abbrev S1x256 : Shape := ⟨2, ![1, 256]⟩

abbrev nBuf : Space → Nat
  | .hbm => 47
  | .vmem => 0
  | .smem => 0
  | _ => 0

abbrev bufTy : (tb : Table) → Fin (tcTables nBuf tb) → BufTy
  | .hbm, ⟨0, _⟩ => ⟨S2048x64x256, .f32⟩
  | .hbm, ⟨1, _⟩ => ⟨S2048x64x256, .f32⟩
  | .hbm, ⟨2, _⟩ => ⟨S2048x64x256, .f32⟩
  | .hbm, ⟨3, _⟩ => ⟨S2048x64, .i32⟩
  | .hbm, ⟨4, _⟩ => ⟨S256x16384, .f32⟩
  | .hbm, ⟨5, _⟩ => ⟨S256, .f32⟩
  | .hbm, ⟨6, _⟩ => ⟨S2048x8x8x256, .f32⟩
  | .hbm, ⟨7, _⟩ => ⟨S2048x8x8x256, .f32⟩
  | .hbm, ⟨8, _⟩ => ⟨S2048x64x256, .f32⟩
  | .hbm, ⟨9, _⟩ => ⟨S2048x8x8x256, .f32⟩
  | .hbm, ⟨10, _⟩ => ⟨S2048x8x8x256, .f32⟩
  | .hbm, ⟨11, _⟩ => ⟨S2048x64x256, .f32⟩
  | .hbm, ⟨12, _⟩ => ⟨S2048x8x8x256, .f32⟩
  | .hbm, ⟨13, _⟩ => ⟨S2048x8x8x256, .f32⟩
  | .hbm, ⟨14, _⟩ => ⟨S2048x64x256, .f32⟩
  | .hbm, ⟨15, _⟩ => ⟨S2048x64x64, .f32⟩
  | .hbm, ⟨16, _⟩ => ⟨S_, .f32⟩
  | .hbm, ⟨17, _⟩ => ⟨S2048x64x64, .f32⟩
  | .hbm, ⟨18, _⟩ => ⟨S2048x64x64, .f32⟩
  | .hbm, ⟨19, _⟩ => ⟨S_, .f32⟩
  | .hbm, ⟨20, _⟩ => ⟨S2048x64, .f32⟩
  | .hbm, ⟨21, _⟩ => ⟨S_, .f32⟩
  | .hbm, ⟨22, _⟩ => ⟨S2048x64, .f32⟩
  | .hbm, ⟨23, _⟩ => ⟨S2048x64, .f32⟩
  | .hbm, ⟨24, _⟩ => ⟨S2048x64x1, .f32⟩
  | .hbm, ⟨25, _⟩ => ⟨S2048x64x64, .f32⟩
  | .hbm, ⟨26, _⟩ => ⟨S2048x64x64, .f32⟩
  | .hbm, ⟨27, _⟩ => ⟨S2048x64x64, .f32⟩
  | .hbm, ⟨28, _⟩ => ⟨S_, .f32⟩
  | .hbm, ⟨29, _⟩ => ⟨S2048x64, .f32⟩
  | .hbm, ⟨30, _⟩ => ⟨S2048x64x1, .f32⟩
  | .hbm, ⟨31, _⟩ => ⟨S2048x64x64, .f32⟩
  | .hbm, ⟨32, _⟩ => ⟨S2048x64x64, .f32⟩
  | .hbm, ⟨33, _⟩ => ⟨S2048x64x256, .f32⟩
  | .hbm, ⟨34, _⟩ => ⟨S2048x8x8x256, .f32⟩
  | .hbm, ⟨35, _⟩ => ⟨S2048x8x8x256, .f32⟩
  | .hbm, ⟨36, _⟩ => ⟨S2048x64x256, .f32⟩
  | .hbm, ⟨37, _⟩ => ⟨S2048x64x256, .f32⟩
  | .hbm, ⟨38, _⟩ => ⟨S2048x16384, .f32⟩
  | .hbm, ⟨39, _⟩ => ⟨S16384x256, .f32⟩
  | .hbm, ⟨40, _⟩ => ⟨S2048x256, .f32⟩
  | .hbm, ⟨41, _⟩ => ⟨S1x256, .f32⟩
  | .hbm, ⟨42, _⟩ => ⟨S2048x256, .f32⟩
  | .hbm, ⟨43, _⟩ => ⟨S2048x256, .f32⟩
  | .hbm, ⟨44, _⟩ => ⟨S_, .f32⟩
  | .hbm, ⟨45, _⟩ => ⟨S2048x256, .f32⟩
  | .hbm, ⟨46, _⟩ => ⟨S2048x256, .f32⟩
  | _, _ => ⟨S2048x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_cst : Ref sig .tc := ⟨.hbm, 44, rfl⟩
abbrev main_call0_v0 : Ref sig .tc := ⟨.hbm, 45, rfl⟩
abbrev main_v34 : Ref sig .tc := ⟨.hbm, 46, rfl⟩

abbrev nD : Nat := 1
abbrev τ : Topo := Topo.v7x

variable {F : FTy → Type} [FloatOps F]

class Facts₀ : Prop where
  shapeCasts_S2048x64x256_S2048x8x8x256 : S2048x64x256.ShapeCasts S2048x8x8x256
  transposes_S2048x8x8x256_S2048x8x8x256_0_2_1_3 : S2048x8x8x256.Transposes [0, 2, 1, 3] S2048x8x8x256
  shapeCasts_S2048x8x8x256_S2048x64x256 : S2048x8x8x256.ShapeCasts S2048x64x256
  bcast_S_S2048x64x64 : S_.BroadcastsInDim S2048x64x64 (![] : Fin 0 → Fin S2048x64x64.rank)
  reducesTo_S2048x64x64_S2048x64_d2 : S2048x64x64.ReducesTo [2] S2048x64
  h_S_ : 0 < S_.numel
  bcast_S_S2048x64 : S_.BroadcastsInDim S2048x64 (![] : Fin 0 → Fin S2048x64.rank)
  bcast_S2048x64_S2048x64x1_0_1 : S2048x64.BroadcastsInDim S2048x64x1 (![0, 1] : Fin 2 → Fin S2048x64x1.rank)
  bcast_S2048x64x1_S2048x64x64_0_1_2 : S2048x64x1.BroadcastsInDim S2048x64x64 (![0, 1, 2] : Fin 3 → Fin S2048x64x64.rank)
  shapeCasts_S2048x64x256_S2048x16384 : S2048x64x256.ShapeCasts S2048x16384
  transposes_S256x16384_S16384x256_1_0 : S256x16384.Transposes [1, 0] S16384x256
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  bcast_S_S2048x256 : S_.BroadcastsInDim S2048x256 (![] : Fin 0 → Fin S2048x256.rank)
  dot_S2048x64x256_S2048x64x256_S2048x64x64_2_2_1_1_0_0_wf : DotDims.WF S2048x64x256 S2048x64x256 S2048x64x64 [2] [2] [1] [1] [0] [0]
  dot_S2048x64x64_S2048x64x256_S2048x64x256_2_1_1_2_0_0_wf : DotDims.WF S2048x64x64 S2048x64x256 S2048x64x256 [2] [1] [1] [2] [0] [0]
  dot_S2048x16384_S16384x256_S2048x256_1_0_0_1_n_n_wf : DotDims.WF S2048x16384 S16384x256 S2048x256 [1] [0] [0] [1] [] []

variable [Facts₀]

def dot_S2048x64x256_S2048x64x256_S2048x64x64_2_2_1_1_0_0 : DotDims S2048x64x256 S2048x64x256 S2048x64x64 where
  lhsContracting := [2]
  rhsContracting := [2]
  lhsNonContracting := [1]
  rhsNonContracting := [1]
  lhsBatch := [0]
  rhsBatch := [0]
  wf := dot_S2048x64x256_S2048x64x256_S2048x64x64_2_2_1_1_0_0_wf
def dot_S2048x64x64_S2048x64x256_S2048x64x256_2_1_1_2_0_0 : DotDims S2048x64x64 S2048x64x256 S2048x64x256 where
  lhsContracting := [2]
  rhsContracting := [1]
  lhsNonContracting := [1]
  rhsNonContracting := [2]
  lhsBatch := [0]
  rhsBatch := [0]
  wf := dot_S2048x64x64_S2048x64x256_S2048x64x256_2_1_1_2_0_0_wf
def dot_S2048x16384_S16384x256_S2048x256_1_0_0_1_n_n : DotDims S2048x16384 S16384x256 S2048x256 where
  lhsContracting := [1]
  rhsContracting := [0]
  lhsNonContracting := [0]
  rhsNonContracting := [1]
  lhsBatch := []
  rhsBatch := []
  wf := dot_S2048x16384_S16384x256_S2048x256_1_0_0_1_n_n_wf

class Facts : Prop extends Facts₀ where

variable [Facts]
-- ==== Proof.Attention.lean ====
/-
  Dense softmax attention over one sequence of tokens, on the extended reals, and the layer that follows it here
  (the attended rows plus the queries, flattened, against one weight row, plus a bias, clipped from below).

  For queries Q, keys K and values V (token × coordinate) and a scale c:
    score i j  = (∑ e, Q i e · K j e) · c
    rowMax s   = max n (the maximum of s over the tokens, taken from n)        (n is −∞ in the programs)
    numer s j  = exp (s j − rowMax s)
    weight s j = numer s j / ∑ j', numer s j'
    attend i e = ∑ j, weight (score i ·) j · V j e.
  Every sum and every maximum runs over ALL tokens, so relabelling the tokens of Q, K and V by one bijection σ
  relabels the result the same way: attend (Q∘σ) (K∘σ) (V∘σ) i = attend Q K V (σ i). Only the commutativity and
  associativity of + and max are used, which hold on the extended reals without any finiteness.
-/
import Idealize.ShloMosaic.PureOps.Ideal.Laws

noncomputable section

namespace Cert.DenseAttention

open Idealize.ShloMosaic

variable {τ ε : Type} [Fintype τ] [Fintype ε]

/-- The scaled inner product of query row `i` and key row `j`. -/
def score (c : EReal) (Q K : τ → ε → EReal) (i j : τ) : EReal := (∑ e, Q i e * K j e) * c

/-- The largest entry of a row of scores, folded from `n` and compared with `n` once more. -/
def rowMax (n : EReal) (s : τ → EReal) : EReal := max n (Finset.univ.fold max n s)

/-- The exponential of a score's distance below the row's maximum. -/
def numer (n : EReal) (s : τ → EReal) (j : τ) : EReal := Ideal.exp (s j - rowMax n s)

/-- The softmax weight of token `j` in a row of scores. -/
def weight (n : EReal) (s : τ → EReal) (j : τ) : EReal := Ideal.div (numer n s j) (∑ j', numer n s j')

/-- Row `i`, coordinate `e` of the attended values. -/
def attend (c n : EReal) (Q K V : τ → ε → EReal) (i : τ) (e : ε) : EReal :=
  ∑ j, weight n (score c Q K i) j * V j e

/-- A maximum over all tokens does not see a relabelling of the tokens. -/
theorem rowMax_relabel (n : EReal) (s : τ → EReal) (σ : τ ≃ τ) : rowMax n (fun j => s (σ j)) = rowMax n s := by
  unfold rowMax
  have h := Finset.fold_map (op := max) (b := n) (g := σ.toEmbedding) (s := Finset.univ) (f := s)
  rw [Finset.map_univ_equiv] at h
  exact congrArg (max n) h.symm

theorem numer_relabel (n : EReal) (s : τ → EReal) (σ : τ ≃ τ) (j : τ) :
    numer n (fun j => s (σ j)) j = numer n s (σ j) := by
  unfold numer
  rw [rowMax_relabel]

/-- The normalising sum runs over all tokens, so it does not see the relabelling either. -/
theorem weight_relabel (n : EReal) (s : τ → EReal) (σ : τ ≃ τ) (j : τ) :
    weight n (fun j => s (σ j)) j = weight n s (σ j) := by
  unfold weight
  rw [numer_relabel]
  refine congrArg (Ideal.div _) ?_
  simp only [numer_relabel]
  exact Equiv.sum_comp σ (numer n s)

/-- Attention is equivariant under one relabelling of the tokens of queries, keys and values. -/
theorem attend_relabel (c n : EReal) (Q K V : τ → ε → EReal) (σ : τ ≃ τ) (i : τ) (e : ε) :
    attend c n (fun i => Q (σ i)) (fun j => K (σ j)) (fun j => V (σ j)) i e = attend c n Q K V (σ i) e := by
  unfold attend
  have hs : score c (fun i => Q (σ i)) (fun j => K (σ j)) i = fun j => score c Q K (σ i) (σ j) := rfl
  rw [hs]
  simp only [weight_relabel]
  exact Equiv.sum_comp σ (fun j => weight n (score c Q K (σ i)) j * V j e)

/-- The token of position `p` of a row of 64 tokens × 256 coordinates laid out flat. -/
def tokenOf (p : Fin 16384) : Fin 64 := ⟨p.val / 256, by have := p.isLt; omega⟩

/-- The coordinate of position `p` of that flat row. -/
def coordOf (p : Fin 16384) : Fin 256 := ⟨p.val % 256, Nat.mod_lt _ (by decide)⟩

/-- One output of the layer after attention: the rows X laid out flat against a weight row, plus a bias, clipped
    from below at `z`. -/
def dense (z : EReal) (X : Fin 64 → Fin 256 → EReal) (w : Fin 16384 → EReal) (b : EReal) : EReal :=
  max ((∑ p : Fin 16384, X (tokenOf p) (coordOf p) * w p) + b) z

end Cert.DenseAttention

end
-- ==== Proof.Results.lean ====
/-
  The two results as whole-array functions of the five float arguments, index by index: for 2048 sequences of 64
  tokens × 256 coordinates, `attended` is dense attention within each sequence, and `output` is, for sequence b and
  unit h, the attended rows plus the queries laid out flat against weight row h, plus the bias at h, clipped at zero.
-/
import proofs.«168151_j75256416960603_2_alg».proof.Proof.Attention
import Idealize.ShloMosaic.Lib.ValueIdx

noncomputable section

namespace Cert.DenseAttention

open Idealize.ShloMosaic Idealize.ShloMosaic.ValueIdx

/-- The scale 1/8, the −∞ the row maxima start from, and the zero the output is clipped at, as both programs spell them. -/
abbrev scale : EReal := Ideal.ofBits .f32 0x3E000000#32
abbrev negInf : EReal := Ideal.ofBits .f32 0xFF800000#32
abbrev zero : EReal := Ideal.ofBits .f32 0x00000000#32

abbrev Seqs : Shape := ⟨3, ![2048, 64, 256]⟩
abbrev Outs : Shape := ⟨2, ![2048, 256]⟩
abbrev Wts : Shape := ⟨2, ![256, 16384]⟩
abbrev Bias : Shape := ⟨1, ![256]⟩

/-- Attention within sequence b, at row i and coordinate e. -/
def attendedAt (q k v : Seqs.Idx → EReal) (b : Fin 2048) (i : Fin 64) (e : Fin 256) : EReal :=
  attend scale negInf (fun i e => q (ix3 b i e)) (fun j e => k (ix3 b j e)) (fun j e => v (ix3 b j e)) i e

/-- The first result: attention within each sequence. -/
def attended (q k v : Seqs.Idx → EReal) : Seqs.Idx → EReal := fun I =>
  attendedAt q k v ⟨(I 0).val, (I 0).isLt⟩ ⟨(I 1).val, (I 1).isLt⟩ ⟨(I 2).val, (I 2).isLt⟩

theorem attended_apply (q k v : Seqs.Idx → EReal) (b : Fin 2048) (i : Fin 64) (e : Fin 256) :
    attended q k v (ix3 b i e) = attendedAt q k v b i e := rfl

/-- The layer after attention for sequence b and unit h. -/
def outputAt (q k v : Seqs.Idx → EReal) (w : Wts.Idx → EReal) (bias : Bias.Idx → EReal) (b : Fin 2048) (h : Fin 256) : EReal :=
  dense zero (fun i e => attendedAt q k v b i e + q (ix3 b i e)) (fun p => w (ix2 h p)) (bias (ix1 h))

/-- The second result. -/
def output (q k v : Seqs.Idx → EReal) (w : Wts.Idx → EReal) (bias : Bias.Idx → EReal) : Outs.Idx → EReal := fun J =>
  outputAt q k v w bias ⟨(J 0).val, (J 0).isLt⟩ ⟨(J 1).val, (J 1).isLt⟩

theorem output_apply (q k v : Seqs.Idx → EReal) (w : Wts.Idx → EReal) (bias : Bias.Idx → EReal) (b : Fin 2048) (h : Fin 256) :
    output q k v w bias (ix2 b h) = outputAt q k v w bias b h := rfl

end Cert.DenseAttention

end
-- ==== Proof.LibStack.lean ====
/-
  A three-axis stack [a,b,c] met by matrices: a matrix [a,b] given a trailing unit axis and stretched along it, one
  entry of a matrix or of a vector picked out as a scalar (a 1×1 or 1-long slab read at its only position), and the
  stack summed along its first or its last axis — each read at an index written by coordinates.
-/
import Idealize.ShloMosaic.Lib.Pipeline.Value
import Idealize.ShloMosaic.Lib.ValueIdx
import Idealize.ShloMosaic.Lib.ValueLayout
import Idealize.ShloMosaic.PureOps.Ideal.Laws

namespace Cert.LibStack

open Idealize.ShloMosaic Idealize.ShloMosaic.ValueIdx

variable {α : Type}

/-- [a,b] viewed [a,b,1]: at (i, j, u) the matrix at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- [a,b,1] stretched to [a,b,c]: at (i, j, k) the column at (i, j, 0). -/
theorem broadcastTo_ab1_abc_apply {a b c : ℕ} (U : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ U h (ix3 i j k) = U (ix3 i j (0 : Fin 1)) := by
  refine broadcastTo_apply U h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The 1×1 slab of a matrix at offset (p, q), read at its only position: the matrix at (p, q). -/
theorem pick2 {n0 n1 : ℕ} (p q : ℕ) (X : (⟨2, ![n0, n1]⟩ : Shape).Idx → α)
    (h : (⟨2, ![n0, n1]⟩ : Shape).Slices ![p, q] ⟨2, ![1, 1]⟩)
    (h' : ∀ a, (![0, 0] : Fin 2 → ℕ) a < (⟨2, ![1, 1]⟩ : Shape).size a) :
    extractAt ![0, 0] (extractStridedSlice ⟨2, ![1, 1]⟩ ![p, q] X h) h'
      = X (ix2 ⟨p, Nat.lt_of_lt_of_le (Nat.lt_succ_self p) (h.2 0)⟩ ⟨q, Nat.lt_of_lt_of_le (Nat.lt_succ_self q) (h.2 1)⟩) := by
  show X _ = X _
  refine congrArg X (funext fun a => Fin.ext ?_)
  match a with
  | ⟨0, _⟩ => exact Nat.add_zero p
  | ⟨1, _⟩ => exact Nat.add_zero q

/-- The 1-long slab of a vector at offset p, read at its only position: the vector at p. -/
theorem pick1 {n0 : ℕ} (p : ℕ) (X : (⟨1, ![n0]⟩ : Shape).Idx → α)
    (h : (⟨1, ![n0]⟩ : Shape).Slices ![p] ⟨1, ![1]⟩)
    (h' : ∀ a, (![0] : Fin 1 → ℕ) a < (⟨1, ![1]⟩ : Shape).size a) :
    extractAt ![0] (extractStridedSlice ⟨1, ![1]⟩ ![p] X h) h'
      = X (ix1 ⟨p, Nat.lt_of_lt_of_le (Nat.lt_succ_self p) (h.2 0)⟩) := by
  show X _ = X _
  refine congrArg X (funext fun a => Fin.ext ?_)
  match a with
  | ⟨0, _⟩ => exact Nat.add_zero p

/-- The stack summed along its LAST axis, from the additive neutral: at (i, j) the sum over k of the entries (i, j, k). -/
theorem sum_last_apply {a b c : ℕ} (src : FVec Ideal ⟨3, ![a, b, c]⟩ .f32) (acc : BitVec FTy.f32.bits)
    (h : (⟨3, ![a, b, c]⟩ : Shape).Reduces [2] ⟨2, ![a, b]⟩) (hφ : FKind.Formats .f32)
    (hacc : acc = FKind.add.neutral .f32 hφ) (i : Fin a) (j : Fin b) :
    multiReduction .add [2] ⟨2, ![a, b]⟩ src acc h hφ hacc (ix2 i j) = ∑ k : Fin c, src (ix3 i j k) := by
  rw [Ideal.multiReduction_add_single]
  refine Finset.sum_congr rfl fun k _ => ?_
  exact congrArg src (funext fun ax => Fin.ext (by match ax with | ⟨0, _⟩ => rfl | ⟨1, _⟩ => rfl | ⟨2, _⟩ => rfl))

/-- The stack summed along its FIRST axis, from the additive neutral: at (j, k) the sum over i of the entries (i, j, k). -/
theorem sum_first_apply {a b c : ℕ} (src : FVec Ideal ⟨3, ![a, b, c]⟩ .f32) (acc : BitVec FTy.f32.bits)
    (h : (⟨3, ![a, b, c]⟩ : Shape).Reduces [0] ⟨2, ![b, c]⟩) (hφ : FKind.Formats .f32)
    (hacc : acc = FKind.add.neutral .f32 hφ) (j : Fin b) (k : Fin c) :
    multiReduction .add [0] ⟨2, ![b, c]⟩ src acc h hφ hacc (ix2 j k) = ∑ i : Fin a, src (ix3 i j k) := by
  rw [Ideal.multiReduction_add_single]
  refine Finset.sum_congr rfl fun i _ => ?_
  exact congrArg src (funext fun ax => Fin.ext (by match ax with | ⟨0, _⟩ => rfl | ⟨1, _⟩ => rfl | ⟨2, _⟩ => rfl))

end Cert.LibStack
-- ==== Proof.LibRowMax.lean ====
/-
  A three-axis stack [a,b,c] reduced by max along its last axis, read at (i, j) as the fold of max over k of the
  entries (i, j, k): for a kernel's multi-reduction from its accumulator word, and for the host's one-operand reduce
  from its scalar initial value. The fold is over the finite set of all k, so it does not depend on any order.
-/
import Idealize.ShloMosaic.Lib.Pipeline.Value
import Idealize.ShloMosaic.Lib.ValueIdx
import Idealize.ShloMosaic.PureOps.Ideal.Laws

namespace Cert.LibRowMax

open Idealize.ShloMosaic Idealize.ShloMosaic.ValueIdx

/-- Entry (i, j, k) of the stack is the entry at (i, j) with k inserted on the last axis. -/
theorem lift_last {a b c : ℕ} (h : (⟨3, ![a, b, c]⟩ : Shape).Reduces [2] ⟨2, ![a, b]⟩) (i : Fin a) (j : Fin b) (k : Fin c) :
    h.lift (ix2 i j) k = ix3 i j k :=
  funext fun ax => Fin.ext (by match ax with | ⟨0, _⟩ => rfl | ⟨1, _⟩ => rfl | ⟨2, _⟩ => rfl)

/-- A kernel's maximum along the last axis, from the accumulator word's value. -/
theorem kernel_max_last_apply {a b c : ℕ} (src : FVec Ideal ⟨3, ![a, b, c]⟩ .f32) (acc : BitVec FTy.f32.bits)
    (h : (⟨3, ![a, b, c]⟩ : Shape).Reduces [2] ⟨2, ![a, b]⟩) (hφ : FKind.Formats .f32)
    (hacc : acc = FKind.maximumf.neutral .f32 hφ) (i : Fin a) (j : Fin b) :
    multiReduction .maximumf [2] ⟨2, ![a, b]⟩ src acc h hφ hacc (ix2 i j)
      = (Finset.univ : Finset (Fin c)).fold max (Ideal.ofBits .f32 acc) (fun k => src (ix3 i j k)) := by
  rw [Ideal.multiReduction_maximumf_single]
  refine congrArg (fun f => Finset.fold max _ f Finset.univ) ?_
  exact funext fun k => congrArg src (lift_last h i j k)

/-- The host's maximum along the last axis, from its scalar initial value. -/
theorem host_max_last_apply {a b c : ℕ} (x : (⟨3, ![a, b, c]⟩ : Shape).Idx → EReal) (init : (⟨0, ![]⟩ : Shape).Idx → EReal)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (i : Fin a) (j : Fin b) :
    Host.reduce (FloatOps.maximumf (F := Ideal) (φ := .f32)) x init h' hu (ix2 i j)
      = (Finset.univ : Finset (Fin c)).fold max (init ix0) (fun k => x (ix3 i j k)) := by
  rw [Host.reduce_eq_fold_single (FloatOps.maximumf (F := Ideal) (φ := .f32)) x init h' h hu (ix2 i j)]
  show Finset.fold max _ _ Finset.univ = _
  rw [show init (Shape.Idx.first hu) = init ix0 from congrArg init (funext fun q => q.elim0)]
  refine congrArg (fun f => Finset.fold max _ f Finset.univ) ?_
  exact funext fun k => congrArg x (lift_last h i j k)

end Cert.LibRowMax
-- ==== Proof.KernelProducts.lean ====
/-
  The kernel's three matrix products, each read at an index as a plain sum over its one contracted coordinate:
  queries against keys and weights against values within a sequence (the sequence index is carried along on both
  sides), and the flat rows against the rows of the layer's weights (both contracted along their second axis).
  Each product starts from a zero accumulator, so on the extended reals it is exactly that sum.
-/
import proofs.«168151_j75256416960603_2_alg».proof.Proof.Gen.KernelIdeal.Skeleton
import proofs.«168151_j75256416960603_2_alg».proof.Proof.Results
import proofs.«168151_j75256416960603_2_alg».proof.Proof.LibStack
import proofs.«168151_j75256416960603_2_alg».proof.Proof.LibRowMax
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.DenseAttention

/-! ## The three products, each read at an index as a sum over its contracted coordinate -/

abbrev Dqk := dot_S16x64x256_S16x64x256_S16x64x64_2_2_1_1_0_0
abbrev Dwv := dot_S16x64x64_S16x64x256_S16x64x256_2_1_1_2_0_0
abbrev Dxw := dot_S16x16384_S256x16384_S16x256_1_1_0_0_n_n

theorem qk_lhs0 (i : S16x64x64.Idx) (q : Dqk.contr.Idx) : (Dqk.lhsIdx i q 0).val = (i 0).val := by
  unfold DotDims.lhsIdx
  rw [dif_pos (show (0 : Fin S16x64x256.rank) ∈ Dqk.lhsBatch by decide)]
  rfl
theorem qk_lhs1 (i : S16x64x64.Idx) (q : Dqk.contr.Idx) : (Dqk.lhsIdx i q 1).val = (i 1).val := by
  unfold DotDims.lhsIdx
  rw [dif_neg (show ¬(1 : Fin S16x64x256.rank) ∈ Dqk.lhsBatch by decide), dif_pos (show (1 : Fin S16x64x256.rank) ∈ Dqk.lhsNonContracting by decide)]
  rfl
theorem qk_lhs2 (i : S16x64x64.Idx) (q : Dqk.contr.Idx) : (Dqk.lhsIdx i q 2).val = (q ⟨0, by decide⟩).val :=
  Dqk.lhsIdx_val_of_single rfl i q
theorem qk_rhs0 (i : S16x64x64.Idx) (q : Dqk.contr.Idx) : (Dqk.rhsIdx i q 0).val = (i 0).val := by
  unfold DotDims.rhsIdx
  rw [dif_pos (show (0 : Fin S16x64x256.rank) ∈ Dqk.rhsBatch by decide)]
  rfl
theorem qk_rhs1 (i : S16x64x64.Idx) (q : Dqk.contr.Idx) : (Dqk.rhsIdx i q 1).val = (i 2).val := by
  unfold DotDims.rhsIdx
  rw [dif_neg (show ¬(1 : Fin S16x64x256.rank) ∈ Dqk.rhsBatch by decide), dif_pos (show (1 : Fin S16x64x256.rank) ∈ Dqk.rhsNonContracting by decide)]
  rfl
theorem qk_rhs2 (i : S16x64x64.Idx) (q : Dqk.contr.Idx) : (Dqk.rhsIdx i q 2).val = (q ⟨0, by decide⟩).val :=
  Dqk.rhsIdx_val_of_single rfl i q

/-- Queries against keys within one sequence: at (b, i, j) the sum over e of l (b, i, e) · r (b, j, e). -/
theorem qk_apply (l r : FVec Ideal S16x64x256 .bf16) (b : Fin 16) (i j : Fin 64) :
    matmul Dqk none l r (constant S16x64x64 .f32 0x00000000#32) (ix3 b i j) = ∑ e : Fin 256, l (ix3 b i e) * r (ix3 b j e) := by
  refine (Ideal.matmul_constant_zero_apply Dqk none l r (ix3 b i j)).trans ?_
  rw [← Equiv.sum_comp (contrEquiv1 Dqk 256 rfl rfl).symm]
  refine Finset.sum_congr rfl fun k _ => ?_
  have hk := contrEquiv1_symm_val Dqk 256 rfl rfl k
  have el : Dqk.lhsIdx (ix3 b i j) ((contrEquiv1 Dqk 256 rfl rfl).symm k) = ix3 b i k := funext fun a => Fin.ext (by
    match a with
    | ⟨0, _⟩ => exact qk_lhs0 _ _
    | ⟨1, _⟩ => exact qk_lhs1 _ _
    | ⟨2, _⟩ => exact (qk_lhs2 _ _).trans hk)
  have er : Dqk.rhsIdx (ix3 b i j) ((contrEquiv1 Dqk 256 rfl rfl).symm k) = ix3 b j k := funext fun a => Fin.ext (by
    match a with
    | ⟨0, _⟩ => exact qk_rhs0 _ _
    | ⟨1, _⟩ => exact qk_rhs1 _ _
    | ⟨2, _⟩ => exact (qk_rhs2 _ _).trans hk)
  rw [el, er]

theorem wv_lhs0 (i : S16x64x256.Idx) (q : Dwv.contr.Idx) : (Dwv.lhsIdx i q 0).val = (i 0).val := by
  unfold DotDims.lhsIdx
  rw [dif_pos (show (0 : Fin S16x64x64.rank) ∈ Dwv.lhsBatch by decide)]
  rfl
theorem wv_lhs1 (i : S16x64x256.Idx) (q : Dwv.contr.Idx) : (Dwv.lhsIdx i q 1).val = (i 1).val := by
  unfold DotDims.lhsIdx
  rw [dif_neg (show ¬(1 : Fin S16x64x64.rank) ∈ Dwv.lhsBatch by decide), dif_pos (show (1 : Fin S16x64x64.rank) ∈ Dwv.lhsNonContracting by decide)]
  rfl
theorem wv_lhs2 (i : S16x64x256.Idx) (q : Dwv.contr.Idx) : (Dwv.lhsIdx i q 2).val = (q ⟨0, by decide⟩).val :=
  Dwv.lhsIdx_val_of_single rfl i q
theorem wv_rhs0 (i : S16x64x256.Idx) (q : Dwv.contr.Idx) : (Dwv.rhsIdx i q 0).val = (i 0).val := by
  unfold DotDims.rhsIdx
  rw [dif_pos (show (0 : Fin S16x64x256.rank) ∈ Dwv.rhsBatch by decide)]
  rfl
theorem wv_rhs1 (i : S16x64x256.Idx) (q : Dwv.contr.Idx) : (Dwv.rhsIdx i q 1).val = (q ⟨0, by decide⟩).val :=
  Dwv.rhsIdx_val_of_single rfl i q
theorem wv_rhs2 (i : S16x64x256.Idx) (q : Dwv.contr.Idx) : (Dwv.rhsIdx i q 2).val = (i 2).val := by
  unfold DotDims.rhsIdx
  rw [dif_neg (show ¬(2 : Fin S16x64x256.rank) ∈ Dwv.rhsBatch by decide), dif_pos (show (2 : Fin S16x64x256.rank) ∈ Dwv.rhsNonContracting by decide)]
  rfl

/-- Weights against values within one sequence: at (b, i, e) the sum over j of l (b, i, j) · r (b, j, e). -/
theorem wv_apply (l : FVec Ideal S16x64x64 .bf16) (r : FVec Ideal S16x64x256 .bf16) (b : Fin 16) (i : Fin 64) (e : Fin 256) :
    matmul Dwv none l r (constant S16x64x256 .f32 0x00000000#32) (ix3 b i e) = ∑ j : Fin 64, l (ix3 b i j) * r (ix3 b j e) := by
  refine (Ideal.matmul_constant_zero_apply Dwv none l r (ix3 b i e)).trans ?_
  rw [← Equiv.sum_comp (contrEquiv1 Dwv 64 rfl rfl).symm]
  refine Finset.sum_congr rfl fun k _ => ?_
  have hk := contrEquiv1_symm_val Dwv 64 rfl rfl k
  have el : Dwv.lhsIdx (ix3 b i e) ((contrEquiv1 Dwv 64 rfl rfl).symm k) = ix3 b i k := funext fun a => Fin.ext (by
    match a with
    | ⟨0, _⟩ => exact wv_lhs0 _ _
    | ⟨1, _⟩ => exact wv_lhs1 _ _
    | ⟨2, _⟩ => exact (wv_lhs2 _ _).trans hk)
  have er : Dwv.rhsIdx (ix3 b i e) ((contrEquiv1 Dwv 64 rfl rfl).symm k) = ix3 b k e := funext fun a => Fin.ext (by
    match a with
    | ⟨0, _⟩ => exact wv_rhs0 _ _
    | ⟨1, _⟩ => exact (wv_rhs1 _ _).trans hk
    | ⟨2, _⟩ => exact wv_rhs2 _ _)
  rw [el, er]

theorem xw_lhs0 (i : S16x256.Idx) (q : Dxw.contr.Idx) : (Dxw.lhsIdx i q 0).val = (i 0).val := by
  unfold DotDims.lhsIdx
  rw [dif_neg (show ¬(0 : Fin S16x16384.rank) ∈ Dxw.lhsBatch by decide), dif_pos (show (0 : Fin S16x16384.rank) ∈ Dxw.lhsNonContracting by decide)]
  rfl
theorem xw_lhs1 (i : S16x256.Idx) (q : Dxw.contr.Idx) : (Dxw.lhsIdx i q 1).val = (q ⟨0, by decide⟩).val :=
  Dxw.lhsIdx_val_of_single rfl i q
theorem xw_rhs0 (i : S16x256.Idx) (q : Dxw.contr.Idx) : (Dxw.rhsIdx i q 0).val = (i 1).val := by
  unfold DotDims.rhsIdx
  rw [dif_neg (show ¬(0 : Fin S256x16384.rank) ∈ Dxw.rhsBatch by decide), dif_pos (show (0 : Fin S256x16384.rank) ∈ Dxw.rhsNonContracting by decide)]
  rfl
theorem xw_rhs1 (i : S16x256.Idx) (q : Dxw.contr.Idx) : (Dxw.rhsIdx i q 1).val = (q ⟨0, by decide⟩).val :=
  Dxw.rhsIdx_val_of_single rfl i q

/-- Flat rows against weight rows: at (b, h) the sum over p of l (b, p) · r (h, p). -/
theorem xw_apply (l : FVec Ideal S16x16384 .bf16) (r : FVec Ideal S256x16384 .bf16) (b : Fin 16) (h : Fin 256) :
    matmul Dxw none l r (constant S16x256 .f32 0x00000000#32) (ix2 b h) = ∑ p : Fin 16384, l (ix2 b p) * r (ix2 h p) := by
  refine (Ideal.matmul_constant_zero_apply Dxw none l r (ix2 b h)).trans ?_
  rw [← Equiv.sum_comp (contrEquiv1 Dxw 16384 rfl rfl).symm]
  refine Finset.sum_congr rfl fun k _ => ?_
  have hk := contrEquiv1_symm_val Dxw 16384 rfl rfl k
  have el : Dxw.lhsIdx (ix2 b h) ((contrEquiv1 Dxw 16384 rfl rfl).symm k) = ix2 b k := funext fun a => Fin.ext (by
    match a with
    | ⟨0, _⟩ => exact xw_lhs0 _ _
    | ⟨1, _⟩ => exact (xw_lhs1 _ _).trans hk)
  have er : Dxw.rhsIdx (ix2 b h) ((contrEquiv1 Dxw 16384 rfl rfl).symm k) = ix2 h k := funext fun a => Fin.ext (by
    match a with
    | ⟨0, _⟩ => exact xw_rhs0 _ _
    | ⟨1, _⟩ => exact (xw_rhs1 _ _).trans hk)
  rw [el, er]

end Cert.KernelIdeal.Body

end
-- ==== Proof.KernelBody.lean ====
/-
  What the kernel's body stores, read at an index. A block holds 16 sequences; for sequence b of the block the first
  store is dense attention of that sequence's queries, keys and values (row i, coordinate e), and the second is, for
  output unit h, the attended rows plus the queries laid out flat against row h of the weights, plus the bias at h,
  clipped at zero. The narrowings to bf16 in front of the three products are the identity on the extended reals.
-/
import proofs.«168151_j75256416960603_2_alg».proof.Proof.KernelProducts

noncomputable section

namespace Cert.KernelIdeal.Body

open Cert.KernelIdeal Cert.KernelIdeal.Gen Idealize.ShloMosaic Idealize.ShloMosaic.ValueIdx Cert.DenseAttention

/-! ## The body's intermediate arrays, named -/

/-- The scaled scores of the block's 16 sequences. -/
def scaled (v0 v1 : Vec Ideal S16x64x256 .f32) : FVec Ideal S16x64x64 .f32 :=
  mulf (matmul Dqk none (truncf .bf16 v0 bitsLt_bf16_f32) (truncf .bf16 v1 bitsLt_bf16_f32) (constant S16x64x64 .f32 0x00000000#32))
    (broadcast S16x64x64 (Scalar.ofBits .f32 0x3E000000#32))

/-- Each row's maximum. -/
def rowmaxes (s : FVec Ideal S16x64x64 .f32) : FVec Ideal S16x64 .f32 :=
  maximumf (broadcast S16x64 (Scalar.ofBits .f32 0xFF800000#32))
    (multiReduction .maximumf [2] S16x64 s 0xFF800000#32 reduces_S16x64x64_S16x64 (.inl rfl) rfl)

/-- A per-row quantity repeated along the row. -/
def alongRow (r : FVec Ideal S16x64 .f32) : FVec Ideal S16x64x64 .f32 :=
  broadcastTo S16x64x64 (shapeCast S16x64x1 r shapeCasts_S16x64_S16x64x1) broadcasts_S16x64x1_S16x64x64

/-- The exponentials of the scores' distances below their row's maximum. -/
def numers (s : FVec Ideal S16x64x64 .f32) : FVec Ideal S16x64x64 .f32 := exp (subf s (alongRow (rowmaxes s)))

/-- The softmax weights. -/
def weights (s : FVec Ideal S16x64x64 .f32) : FVec Ideal S16x64x64 .f32 :=
  divf (numers s) (alongRow (multiReduction .add [2] S16x64 (numers s) 0x00000000#32 reduces_S16x64x64_S16x64 (.inl rfl) rfl))

/-- The first store's payload is the weights against the values. -/
theorem pay1_eq (v0 v1 v2 : Vec Ideal S16x64x256 .f32) :
    k0_pay1 (F := Ideal) v0 v1 v2
      = matmul Dwv none (truncf .bf16 (weights (scaled v0 v1)) bitsLt_bf16_f32) (truncf .bf16 v2 bitsLt_bf16_f32) (constant S16x64x256 .f32 0x00000000#32) := rfl

/-! ## Each read at an index -/

theorem scaled_apply (v0 v1 : Vec Ideal S16x64x256 .f32) (b : Fin 16) (i j : Fin 64) :
    scaled v0 v1 (ix3 b i j) = score scale (fun i e => v0 (ix3 b i e)) (fun j e => v1 (ix3 b j e)) i j := by
  unfold scaled score
  show matmul (F := Ideal) Dqk none _ _ _ (ix3 b i j) * scale = _
  rw [qk_apply]
  rfl

theorem rowmaxes_apply (s : FVec Ideal S16x64x64 .f32) (b : Fin 16) (i : Fin 64) :
    rowmaxes s (ix2 b i) = rowMax negInf (fun j => s (ix3 b i j)) := by
  unfold rowmaxes rowMax
  exact congrArg (max negInf) (LibRowMax.kernel_max_last_apply s 0xFF800000#32 reduces_S16x64x64_S16x64 (.inl rfl) rfl b i)

theorem alongRow_apply (r : FVec Ideal S16x64 .f32) (b : Fin 16) (i j : Fin 64) : alongRow r (ix3 b i j) = r (ix2 b i) := by
  unfold alongRow
  exact (LibStack.broadcastTo_ab1_abc_apply _ broadcasts_S16x64x1_S16x64x64 b i j).trans
    (LibStack.shapeCast_ab_ab1_apply r shapeCasts_S16x64_S16x64x1 b i (0 : Fin 1))

theorem numers_apply (s : FVec Ideal S16x64x64 .f32) (b : Fin 16) (i j : Fin 64) :
    numers s (ix3 b i j) = numer negInf (fun j => s (ix3 b i j)) j := by
  unfold numers numer
  show Ideal.exp (s (ix3 b i j) - alongRow (rowmaxes s) (ix3 b i j)) = _
  rw [alongRow_apply, rowmaxes_apply]

theorem weights_apply (s : FVec Ideal S16x64x64 .f32) (b : Fin 16) (i j : Fin 64) :
    weights s (ix3 b i j) = weight negInf (fun j => s (ix3 b i j)) j := by
  unfold weights weight
  show Ideal.div (numers s (ix3 b i j)) (alongRow _ (ix3 b i j)) = _
  rw [alongRow_apply, numers_apply]
  refine congrArg (Ideal.div _) ?_
  refine (LibStack.sum_last_apply (numers s) 0x00000000#32 reduces_S16x64x64_S16x64 (.inl rfl) rfl b i).trans ?_
  exact Finset.sum_congr rfl fun k _ => numers_apply s b i k

/-- The first store at (b, i, e): dense attention within sequence b. -/
theorem pay1_apply (v0 v1 v2 : Vec Ideal S16x64x256 .f32) (b : Fin 16) (i : Fin 64) (e : Fin 256) :
    k0_pay1 (F := Ideal) v0 v1 v2 (ix3 b i e)
      = attend scale negInf (fun i e => v0 (ix3 b i e)) (fun j e => v1 (ix3 b j e)) (fun j e => v2 (ix3 b j e)) i e := by
  rw [pay1_eq, wv_apply]
  unfold attend
  refine Finset.sum_congr rfl fun j _ => ?_
  show weights (scaled v0 v1) (ix3 b i j) * v2 (ix3 b j e) = _
  rw [weights_apply]
  have hs : (fun j => scaled v0 v1 (ix3 b i j)) = score scale (fun i e => v0 (ix3 b i e)) (fun j e => v1 (ix3 b j e)) i :=
    funext fun j => scaled_apply v0 v1 b i j
  rw [hs]

/-- Sequence b's 64 × 256 rows laid out flat: position p holds token p / 256, coordinate p % 256. -/
theorem flat_apply (x : FVec Ideal S16x64x256 .f32) (b : Fin 16) (p : Fin 16384) :
    shapeCast S16x16384 x shapeCasts_S16x64x256_S16x16384 (ix2 b p) = x (ix3 b (tokenOf p) (coordOf p)) :=
  shapeCast_apply x shapeCasts_S16x64x256_S16x16384 _ _ (by
    rw [Shape.rowMajor_val_three, Shape.rowMajor_val_two]
    show (b.val * 64 + p.val / 256) * 256 + p.val % 256 = b.val * 16384 + p.val
    omega)

/-- The bias repeated down the 16 rows. -/
theorem bias_apply (v : FVec Ideal S256 .f32) (b : Fin 16) (h : Fin 256) :
    broadcastTo S16x256 (shapeCast S1x256 v shapeCasts_S256_S1x256) broadcasts_S1x256_S16x256 (ix2 b h) = v (ix1 h) :=
  (broadcastTo_1b_ab_apply _ broadcasts_S1x256_S16x256 b h).trans (shapeCast_a_1a_apply v shapeCasts_S256_S1x256 (0 : Fin 1) h)

/-- The second store at (b, h): sequence b's attended rows plus its queries, flat, against weight row h, plus the
    bias at h, clipped at zero. -/
theorem pay2_apply (v0 v1 v2 : Vec Ideal S16x64x256 .f32) (v26 : Vec Ideal S256x16384 .bf16) (v29 : Vec Ideal S256 .f32)
    (b : Fin 16) (h : Fin 256) :
    k0_pay2 (F := Ideal) v0 v1 v2 v26 v29 (ix2 b h)
      = dense zero (fun i e => k0_pay1 (F := Ideal) v0 v1 v2 (ix3 b i e) + v0 (ix3 b i e)) (fun p => v26 (ix2 h p)) (v29 (ix1 h)) := by
  unfold k0_pay2 dense
  show max (matmul Dxw none _ _ _ (ix2 b h) + broadcastTo S16x256 _ _ (ix2 b h)) zero = _
  rw [xw_apply, bias_apply]
  refine congrArg (fun s => max (s + v29 (ix1 h)) zero) ?_
  refine Finset.sum_congr rfl fun p _ => ?_
  show shapeCast S16x16384 (addf (k0_pay1 (F := Ideal) v0 v1 v2) v0) shapeCasts_S16x64x256_S16x16384 (ix2 b p)
      * shapeCast S256x16384 v26 shapeCasts_S256x16384_S256x16384 (ix2 h p) = _
  rw [flat_apply, shapeCast_self]
  rfl

end Cert.KernelIdeal.Body

end
-- ==== Proof.KernelArray.lean ====
/-
  From blocks to whole arrays. Grid point t handles sequences 16t … 16t + 15: its query, key and value blocks are
  those sequences' rows, the weights and the bias are staged whole, and its two stores go to rows 16t … 16t + 15 of
  the two results. The 128 points' blocks tile both results, so after the run each result is one function of the
  arguments: attention within each sequence, and the layer after it.
-/
import proofs.«168151_j75256416960603_2_alg».proof.Proof.Gen.KernelIdeal.Value
import proofs.«168151_j75256416960603_2_alg».proof.Proof.KernelBody

noncomputable section

namespace Cert.KernelIdeal.Whole

open Cert.KernelIdeal Cert.KernelIdeal.Gen Idealize.ShloMosaic Idealize.ShloMosaic.TcCoe Idealize.SL.Sem
  Idealize.ShloMosaic.ValueIdx Cert.DenseAttention Cert.KernelIdeal.Body
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The printed index maps over the 128 grid points: the sequence-blocked windows sit at block t along the first
    axis and at block 0 along the others; the weights and the bias sit at block 0. -/
theorem index_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 2) = 0 ∧ win0_3.index t (1 : Fin 2) = 0)
    ∧ win0_4.index t (0 : Fin 1) = 0
    ∧ (win0_5.index t (0 : Fin 3) = t.val ∧ win0_5.index t (1 : Fin 3) = 0 ∧ win0_5.index t (2 : Fin 3) = 0)
    ∧ (win0_6.index t (0 : Fin 2) = t.val ∧ win0_6.index t (1 : Fin 2) = 0) :=
  (by decide +kernel : ∀ t : Fin grid0.N, _)

/-! ## The input blocks, read where the arrays hold them -/

theorem query_block (c : Dev nD) (t : Fin cfg0.N) (bb : Fin 16) (i : Fin 64) (e : Fin 256) (B : Fin 2048)
    (hB : B.val = t.val * 16 + bb.val) :
    (iblk m c 0 t : Vec Ideal S16x64x256 .f32) (ix3 bb i e) = (V m c main_arg2 : S2048x64x256.Idx → EReal) (ix3 B i e) := by
  obtain ⟨⟨h0, h1, h2⟩, -⟩ := index_facts t
  unfold iblk
  rw [View.read_apply]
  show V m c main_arg2 _ = V m c main_arg2 _
  refine congrArg (V m c main_arg2) (funext fun a => Fin.ext ?_)
  match a with
  | ⟨0, _⟩ => show win0_0.index t (0 : Fin 3) * 16 + 1 * bb.val = B.val; rw [h0, hB]; omega
  | ⟨1, _⟩ => show win0_0.index t (1 : Fin 3) * 64 + 1 * i.val = i.val; rw [h1]; omega
  | ⟨2, _⟩ => show win0_0.index t (2 : Fin 3) * 256 + 1 * e.val = e.val; rw [h2]; omega

theorem key_block (c : Dev nD) (t : Fin cfg0.N) (bb : Fin 16) (i : Fin 64) (e : Fin 256) (B : Fin 2048)
    (hB : B.val = t.val * 16 + bb.val) :
    (iblk m c 1 t : Vec Ideal S16x64x256 .f32) (ix3 bb i e) = (V m c main_arg1 : S2048x64x256.Idx → EReal) (ix3 B i e) := by
  obtain ⟨-, ⟨h0, h1, h2⟩, -⟩ := index_facts t
  unfold iblk
  rw [View.read_apply]
  show V m c main_arg1 _ = V m c main_arg1 _
  refine congrArg (V m c main_arg1) (funext fun a => Fin.ext ?_)
  match a with
  | ⟨0, _⟩ => show win0_1.index t (0 : Fin 3) * 16 + 1 * bb.val = B.val; rw [h0, hB]; omega
  | ⟨1, _⟩ => show win0_1.index t (1 : Fin 3) * 64 + 1 * i.val = i.val; rw [h1]; omega
  | ⟨2, _⟩ => show win0_1.index t (2 : Fin 3) * 256 + 1 * e.val = e.val; rw [h2]; omega

theorem value_block (c : Dev nD) (t : Fin cfg0.N) (bb : Fin 16) (i : Fin 64) (e : Fin 256) (B : Fin 2048)
    (hB : B.val = t.val * 16 + bb.val) :
    (iblk m c 2 t : Vec Ideal S16x64x256 .f32) (ix3 bb i e) = (V m c main_arg0 : S2048x64x256.Idx → EReal) (ix3 B i e) := by
  obtain ⟨-, -, ⟨h0, h1, h2⟩, -⟩ := index_facts t
  unfold iblk
  rw [View.read_apply]
  show V m c main_arg0 _ = V m c main_arg0 _
  refine congrArg (V m c main_arg0) (funext fun a => Fin.ext ?_)
  match a with
  | ⟨0, _⟩ => show win0_2.index t (0 : Fin 3) * 16 + 1 * bb.val = B.val; rw [h0, hB]; omega
  | ⟨1, _⟩ => show win0_2.index t (1 : Fin 3) * 64 + 1 * i.val = i.val; rw [h1]; omega
  | ⟨2, _⟩ => show win0_2.index t (2 : Fin 3) * 256 + 1 * e.val = e.val; rw [h2]; omega

theorem weight_block (c : Dev nD) (t : Fin cfg0.N) (h : Fin 256) (p : Fin 16384) :
    (iblk m c 3 t : Vec Ideal S256x16384 .bf16) (ix2 h p) = (V m c main_v0 : S256x16384.Idx → EReal) (ix2 h p) := by
  obtain ⟨-, -, -, ⟨h0, h1⟩, -⟩ := index_facts t
  unfold iblk
  rw [View.read_apply]
  show V m c main_v0 _ = V m c main_v0 _
  refine congrArg (V m c main_v0) (funext fun a => Fin.ext ?_)
  match a with
  | ⟨0, _⟩ => show win0_3.index t (0 : Fin 2) * 256 + 1 * h.val = h.val; rw [h0]; omega
  | ⟨1, _⟩ => show win0_3.index t (1 : Fin 2) * 16384 + 1 * p.val = p.val; rw [h1]; omega

theorem bias_block (c : Dev nD) (t : Fin cfg0.N) (h : Fin 256) :
    (iblk m c 4 t : Vec Ideal S256 .f32) (ix1 h) = (V m c main_arg5 : S256.Idx → EReal) (ix1 h) := by
  obtain ⟨-, -, -, -, h0, -⟩ := index_facts t
  unfold iblk
  rw [View.read_apply]
  show V m c main_arg5 _ = V m c main_arg5 _
  refine congrArg (V m c main_arg5) (funext fun a => Fin.ext ?_)
  match a with
  | ⟨0, _⟩ => show win0_4.index t (0 : Fin 1) * 256 + 1 * h.val = h.val; rw [h0]; omega

/-- The weights the region finds are the argument's: the host's narrowing to bf16 is the identity here. -/
theorem weights_entry (c : Dev nD) :
    (V m c main_v0 : S256x16384.Idx → EReal) = (m ((c : Thread nD τ).loc main_arg4) : S256x16384.Idx → EReal) := by
  dsimp only [V, hostOps0]
  after_results
  rfl

/-! ## What a point computes, in terms of the arrays -/

/-- Sequence bb of block t is sequence 16t + bb of the arrays. -/
theorem attended_block (c : Dev nD) (t : Fin cfg0.N) (bb : Fin 16) (i : Fin 64) (e : Fin 256) (B : Fin 2048)
    (hB : B.val = t.val * 16 + bb.val) :
    k0_pay1 (F := Ideal) (iblk m c 0 t) (iblk m c 1 t) (iblk m c 2 t) (ix3 bb i e)
      = attendedAt (V m c main_arg2) (V m c main_arg1) (V m c main_arg0) B i e := by
  refine (pay1_apply (iblk m c 0 t) (iblk m c 1 t) (iblk m c 2 t) bb i e).trans ?_
  unfold attendedAt
  have e0 : (fun (i : Fin 64) (e : Fin 256) => (iblk m c 0 t : Vec Ideal S16x64x256 .f32) (ix3 bb i e))
      = fun i e => (V m c main_arg2 : S2048x64x256.Idx → EReal) (ix3 B i e) :=
    funext fun i => funext fun e => query_block m c t bb i e B hB
  have e1 : (fun (i : Fin 64) (e : Fin 256) => (iblk m c 1 t : Vec Ideal S16x64x256 .f32) (ix3 bb i e))
      = fun i e => (V m c main_arg1 : S2048x64x256.Idx → EReal) (ix3 B i e) :=
    funext fun i => funext fun e => key_block m c t bb i e B hB
  have e2 : (fun (i : Fin 64) (e : Fin 256) => (iblk m c 2 t : Vec Ideal S16x64x256 .f32) (ix3 bb i e))
      = fun i e => (V m c main_arg0 : S2048x64x256.Idx → EReal) (ix3 B i e) :=
    funext fun i => funext fun e => value_block m c t bb i e B hB
  rw [e0, e1, e2]

theorem output_block (c : Dev nD) (t : Fin cfg0.N) (bb : Fin 16) (h : Fin 256) (B : Fin 2048)
    (hB : B.val = t.val * 16 + bb.val) :
    k0_pay2 (F := Ideal) (iblk m c 0 t) (iblk m c 1 t) (iblk m c 2 t) (iblk m c 3 t) (iblk m c 4 t) (ix2 bb h)
      = outputAt (V m c main_arg2) (V m c main_arg1) (V m c main_arg0) (V m c main_v0) (V m c main_arg5) B h := by
  refine (pay2_apply (iblk m c 0 t) (iblk m c 1 t) (iblk m c 2 t) (iblk m c 3 t) (iblk m c 4 t) bb h).trans ?_
  unfold outputAt
  have ex : (fun (i : Fin 64) (e : Fin 256) => k0_pay1 (F := Ideal) (iblk m c 0 t) (iblk m c 1 t) (iblk m c 2 t) (ix3 bb i e)
        + (iblk m c 0 t : Vec Ideal S16x64x256 .f32) (ix3 bb i e))
      = fun i e => attendedAt (V m c main_arg2) (V m c main_arg1) (V m c main_arg0) B i e
        + (V m c main_arg2 : S2048x64x256.Idx → EReal) (ix3 B i e) :=
    funext fun i => funext fun e => by rw [attended_block m c t bb i e B hB, query_block m c t bb i e B hB]
  have ew : (fun p : Fin 16384 => (iblk m c 3 t : Vec Ideal S256x16384 .bf16) (ix2 h p))
      = fun p => (V m c main_v0 : S256x16384.Idx → EReal) (ix2 h p) := funext fun p => weight_block m c t h p
  rw [ex, ew, bias_block m c t h]

/-! ## What each point writes back is its block of the whole-array function -/

theorem flushed_attended (c : Dev nD) (t : Fin cfg0.N) :
    (dats m 0 c).flushed 5 t
      = ((cfg0.win 5).blk t).view.read (Elt Ideal) (attended (V m c main_arg2) (V m c main_arg1) (V m c main_arg0)) := by
  rw [Value.flushed5]
  unfold out0_5
  rw [View.canon_unit_zero zeros3]
  simp only [View.ld_unit_zero (S := S16x64x256) zeros3]
  obtain ⟨-, -, -, -, -, ⟨h0, h1, h2⟩, -⟩ := index_facts t
  have hN : grid0.N = 128 := N_0
  have ht : t.val < grid0.N := t.isLt
  funext y
  have y0 : (y 0).val < 16 := (y 0).isLt
  have y1 : (y 1).val < 64 := (y 1).isLt
  have y2 : (y 2).val < 256 := (y 2).isLt
  show k0_pay1 (F := Ideal) (iblk m c 0 t) (iblk m c 1 t) (iblk m c 2 t) ((cfg0.win 5).xinj (grid0.coords t) y)
      = attended (V m c main_arg2) (V m c main_arg1) (V m c main_arg0) (((cfg0.win 5).blk t).view.emb y)
  have hx : ((cfg0.win 5).xinj (grid0.coords t) y : S16x64x256.Idx) = ix3 ⟨(y 0).val, y0⟩ ⟨(y 1).val, y1⟩ ⟨(y 2).val, y2⟩ :=
    funext fun a => Fin.ext (by match a with | ⟨0, _⟩ => rfl | ⟨1, _⟩ => rfl | ⟨2, _⟩ => rfl)
  have hemb : (((cfg0.win 5).blk t).view.emb y : S2048x64x256.Idx)
      = ix3 ⟨t.val * 16 + (y 0).val, by omega⟩ ⟨(y 1).val, y1⟩ ⟨(y 2).val, y2⟩ :=
    funext fun a => Fin.ext (by
      match a with
      | ⟨0, _⟩ => show win0_5.index t (0 : Fin 3) * 16 + 1 * (y 0).val = t.val * 16 + (y 0).val; rw [h0]; omega
      | ⟨1, _⟩ => show win0_5.index t (1 : Fin 3) * 64 + 1 * (y 1).val = (y 1).val; rw [h1]; omega
      | ⟨2, _⟩ => show win0_5.index t (2 : Fin 3) * 256 + 1 * (y 2).val = (y 2).val; rw [h2]; omega)
  rw [hx, hemb, attended_apply]
  exact attended_block m c t _ _ _ _ rfl

theorem flushed_output (c : Dev nD) (t : Fin cfg0.N) :
    (dats m 0 c).flushed 6 t
      = ((cfg0.win 6).blk t).view.read (Elt Ideal)
          (output (V m c main_arg2) (V m c main_arg1) (V m c main_arg0) (V m c main_v0) (V m c main_arg5)) := by
  rw [Value.flushed6]
  unfold out0_6
  rw [View.canon_unit_zero zeros2]
  simp only [View.ld_unit_zero (S := S16x64x256) zeros3, View.ld_unit_zero (S := S256x16384) zeros2,
    View.ld_unit_zero (S := S256) zeros1]
  obtain ⟨-, -, -, -, -, -, ⟨h0, h1⟩⟩ := index_facts t
  have hN : grid0.N = 128 := N_0
  have ht : t.val < grid0.N := t.isLt
  funext y
  have y0 : (y 0).val < 16 := (y 0).isLt
  have y1 : (y 1).val < 256 := (y 1).isLt
  show k0_pay2 (F := Ideal) (iblk m c 0 t) (iblk m c 1 t) (iblk m c 2 t) (iblk m c 3 t) (iblk m c 4 t)
        ((cfg0.win 6).xinj (grid0.coords t) y)
      = output (V m c main_arg2) (V m c main_arg1) (V m c main_arg0) (V m c main_v0) (V m c main_arg5)
        (((cfg0.win 6).blk t).view.emb y)
  have hx : ((cfg0.win 6).xinj (grid0.coords t) y : S16x256.Idx) = ix2 ⟨(y 0).val, y0⟩ ⟨(y 1).val, y1⟩ :=
    funext fun a => Fin.ext (by match a with | ⟨0, _⟩ => rfl | ⟨1, _⟩ => rfl)
  have hemb : (((cfg0.win 6).blk t).view.emb y : S2048x256.Idx) = ix2 ⟨t.val * 16 + (y 0).val, by omega⟩ ⟨(y 1).val, y1⟩ :=
    funext fun a => Fin.ext (by
      match a with
      | ⟨0, _⟩ => show win0_6.index t (0 : Fin 2) * 16 + 1 * (y 0).val = t.val * 16 + (y 0).val; rw [h0]; omega
      | ⟨1, _⟩ => show win0_6.index t (1 : Fin 2) * 256 + 1 * (y 1).val = (y 1).val; rw [h1]; omega)
  rw [hx, hemb, output_apply]
  exact output_block m c t _ _ _ rfl

/-! ## The blocks tile the results -/

theorem mem_attended_block (t : Fin cfg0.N) (I : S2048x64x256.Idx) :
    I ∈ ((cfg0.win 5).blk t).view.set ↔ ∀ a : Fin 3, win0_5.index t a * S16x64x256.size a ≤ (I a).val
      ∧ (I a).val < win0_5.index t a * S16x64x256.size a + S16x64x256.size a := by
  show I ∈ ((View.whole main_v1_0).slice (win0_5.rect t)).set ↔ _
  rw [View.set_slice_whole, Rect.mem_set_unit]
  exact Iff.rfl

theorem mem_output_block (t : Fin cfg0.N) (J : S2048x256.Idx) :
    J ∈ ((cfg0.win 6).blk t).view.set ↔ ∀ a : Fin 2, win0_6.index t a * S16x256.size a ≤ (J a).val
      ∧ (J a).val < win0_6.index t a * S16x256.size a + S16x256.size a := by
  show J ∈ ((View.whole main_v1_1).slice (win0_6.rect t)).set ↔ _
  rw [View.set_slice_whole, Rect.mem_set_unit]
  exact Iff.rfl

/-- Sequence b lies in the block of point b / 16. -/
theorem attended_cover (I : S2048x64x256.Idx) :
    ∃ t : Fin cfg0.N, (cfg0.win 5).flush t = true ∧ I ∈ ((cfg0.win 5).blk t).view.set := by
  have hN : grid0.N = 128 := N_0
  have i0 : (I 0).val < 2048 := (I 0).isLt
  have i1 : (I 1).val < 64 := (I 1).isLt
  have i2 : (I 2).val < 256 := (I 2).isLt
  obtain ⟨t, ht⟩ : ∃ t : Fin cfg0.N, t.val = (I 0).val / 16 := ⟨⟨(I 0).val / 16, by show _ < grid0.N; omega⟩, rfl⟩
  obtain ⟨-, -, -, -, -, ⟨h0, h1, h2⟩, -⟩ := index_facts t
  refine ⟨t, flush0_5 t, ?_⟩
  rw [mem_attended_block]
  intro a
  match a with
  | ⟨0, _⟩ => show win0_5.index t (0 : Fin 3) * 16 ≤ (I 0).val ∧ (I 0).val < win0_5.index t (0 : Fin 3) * 16 + 16; rw [h0, ht]; omega
  | ⟨1, _⟩ => show win0_5.index t (1 : Fin 3) * 64 ≤ (I 1).val ∧ (I 1).val < win0_5.index t (1 : Fin 3) * 64 + 64; rw [h1]; omega
  | ⟨2, _⟩ => show win0_5.index t (2 : Fin 3) * 256 ≤ (I 2).val ∧ (I 2).val < win0_5.index t (2 : Fin 3) * 256 + 256; rw [h2]; omega

theorem output_cover (J : S2048x256.Idx) :
    ∃ t : Fin cfg0.N, (cfg0.win 6).flush t = true ∧ J ∈ ((cfg0.win 6).blk t).view.set := by
  have hN : grid0.N = 128 := N_0
  have j0 : (J 0).val < 2048 := (J 0).isLt
  have j1 : (J 1).val < 256 := (J 1).isLt
  obtain ⟨t, ht⟩ : ∃ t : Fin cfg0.N, t.val = (J 0).val / 16 := ⟨⟨(J 0).val / 16, by show _ < grid0.N; omega⟩, rfl⟩
  obtain ⟨-, -, -, -, -, -, ⟨h0, h1⟩⟩ := index_facts t
  refine ⟨t, flush0_6 t, ?_⟩
  rw [mem_output_block]
  intro a
  match a with
  | ⟨0, _⟩ => show win0_6.index t (0 : Fin 2) * 16 ≤ (J 0).val ∧ (J 0).val < win0_6.index t (0 : Fin 2) * 16 + 16; rw [h0, ht]; omega
  | ⟨1, _⟩ => show win0_6.index t (1 : Fin 2) * 256 ≤ (J 1).val ∧ (J 1).val < win0_6.index t (1 : Fin 2) * 256 + 256; rw [h1]; omega

/-! ## The results after the run -/

theorem final_attended (c : Dev nD) :
    (dats m 0 c).arrAt 5 cfg0.N
      = attended (m ((c : Thread nD τ).loc main_arg2)) (m ((c : Thread nD τ).loc main_arg1)) (m ((c : Thread nD τ).loc main_arg0)) := by
  have h := (dats m 0 c).arrAt_eq_of_cover 5 _ (fun t _ => flushed_attended m c t) attended_cover
  rw [V_main_arg2 m c, V_main_arg1 m c, V_main_arg0 m c] at h
  exact h

theorem final_output (c : Dev nD) :
    (dats m 0 c).arrAt 6 cfg0.N
      = output (m ((c : Thread nD τ).loc main_arg2)) (m ((c : Thread nD τ).loc main_arg1)) (m ((c : Thread nD τ).loc main_arg0))
          (m ((c : Thread nD τ).loc main_arg4)) (m ((c : Thread nD τ).loc main_arg5)) := by
  have h := (dats m 0 c).arrAt_eq_of_cover 6 _ (fun t _ => flushed_output m c t) output_cover
  rw [V_main_arg2 m c, V_main_arg1 m c, V_main_arg0 m c, V_main_arg5 m c, weights_entry m c] at h
  exact h

/-- The kernel's run with both results named as functions of the arguments. -/
theorem run : θ_run defs (onTc (τ := τ) (main (F := Ideal))) ⟨m, fun _ => 0, ρ⟩ fun r => ∀ c : Dev nD,
      r.2.mem ((c : Thread nD τ).loc main_v1_1)
        = output (m ((c : Thread nD τ).loc main_arg2)) (m ((c : Thread nD τ).loc main_arg1)) (m ((c : Thread nD τ).loc main_arg0))
            (m ((c : Thread nD τ).loc main_arg4)) (m ((c : Thread nD τ).loc main_arg5))
      ∧ r.2.mem ((c : Thread nD τ).loc main_v1_0)
        = attended (m ((c : Thread nD τ).loc main_arg2)) (m ((c : Thread nD τ).loc main_arg1)) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).2.1.trans (final_output m c), (h c).1.trans (final_attended m c), (h c).2.2⟩)
    (Value.run_blocks m ρ)

end Cert.KernelIdeal.Whole

end
-- ==== Proof.ReferenceValue.lean ====
/-
  The reference's two results, read at an index. The reference relabels the 64 tokens of queries, keys and values
  by the strided order 8a + c ↦ 8c + a (a reshape to 8 × 8, a swap of the two axes, a reshape back), attends, and
  relabels the attended rows by the same map again. The map is its own inverse and attention is equivariant under
  one relabelling of the tokens, so the attended rows are plain attention within each sequence; the layer after it
  is read off operation by operation.
-/
import proofs.«168151_j75256416960603_2_alg».proof.Proof.Gen.ReferenceIdeal.Read
import proofs.«168151_j75256416960603_2_alg».proof.Proof.Results
import proofs.«168151_j75256416960603_2_alg».proof.Proof.LibRowMax
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
  Cert.DenseAttention

/-! ## The strided order of the tokens -/

/-- Token 8a + c goes to 8c + a. -/
def stride (i : Fin 64) : Fin 64 := ⟨i.val % 8 * 8 + i.val / 8, by have := i.isLt; omega⟩

theorem stride_stride (i : Fin 64) : stride (stride i) = i :=
  Fin.ext (by
    show (i.val % 8 * 8 + i.val / 8) % 8 * 8 + (i.val % 8 * 8 + i.val / 8) / 8 = i.val
    have := i.isLt; omega)

/-- The strided order as a bijection of the tokens (it is an involution). -/
def strideEquiv : Fin 64 ≃ Fin 64 := ⟨stride, stride, stride_stride, stride_stride⟩

/-- Reshape [2048,64,256] to [2048,8,8,256], swap the two middle axes, reshape back: row i holds row `stride i`. -/
theorem restride_apply {α : Type} (X : S2048x64x256.Idx → α) (b : Fin 2048) (i : Fin 64) (e : Fin 256) :
    shapeCast S2048x64x256 (transpose S2048x8x8x256 [0, 2, 1, 3] (shapeCast S2048x8x8x256 X shapeCasts_S2048x64x256_S2048x8x8x256)
        transposes_S2048x8x8x256_S2048x8x8x256_0_2_1_3) shapeCasts_S2048x8x8x256_S2048x64x256 (ix3 b i e)
      = X (ix3 b (stride i) e) := by
  have hi := i.isLt
  let hi8 : Fin 8 := ⟨i.val / 8, by omega⟩
  let lo8 : Fin 8 := ⟨i.val % 8, by omega⟩
  refine (shapeCast_apply _ shapeCasts_S2048x8x8x256_S2048x64x256 (ix3 b i e) (ix4 b hi8 lo8 e) ?_).trans ?_
  · rw [Shape.rowMajor_val_four, Shape.rowMajor_val_three]
    show ((b.val * 8 + i.val / 8) * 8 + i.val % 8) * 256 + e.val = (b.val * 64 + i.val) * 256 + e.val
    omega
  refine (transpose_apply [0, 2, 1, 3] _ transposes_S2048x8x8x256_S2048x8x8x256_0_2_1_3 (ix4 b hi8 lo8 e) (ix4 b lo8 hi8 e)
    (fun a => match a with | ⟨0, _⟩ => rfl | ⟨1, _⟩ => rfl | ⟨2, _⟩ => rfl | ⟨3, _⟩ => rfl)).trans ?_
  exact shapeCast_apply X shapeCasts_S2048x64x256_S2048x8x8x256 (ix4 b lo8 hi8 e) (ix3 b (stride i) e) (by
    rw [Shape.rowMajor_val_three, Shape.rowMajor_val_four]
    show (b.val * 64 + (i.val % 8 * 8 + i.val / 8)) * 256 + e.val = ((b.val * 8 + i.val % 8) * 8 + i.val / 8) * 256 + e.val
    omega)

/-! ## The relabelled queries, keys and values -/

theorem queries_apply (x2 : (⟨S2048x64x256, .f32⟩ : BufTy).Contents (Elt Ideal)) (b : Fin 2048) (i : Fin 64) (e : Fin 256) :
    val_main_v2 (F := Ideal) x2 (ix3 b i e) = x2 (ix3 b (stride i) e) := restride_apply x2 b i e

theorem keys_apply (x1 : (⟨S2048x64x256, .f32⟩ : BufTy).Contents (Elt Ideal)) (b : Fin 2048) (i : Fin 64) (e : Fin 256) :
    val_main_v5 (F := Ideal) x1 (ix3 b i e) = x1 (ix3 b (stride i) e) := restride_apply x1 b i e

theorem values_apply (x0 : (⟨S2048x64x256, .f32⟩ : BufTy).Contents (Elt Ideal)) (b : Fin 2048) (i : Fin 64) (e : Fin 256) :
    val_main_v8 (F := Ideal) x0 (ix3 b i e) = x0 (ix3 b (stride i) e) := restride_apply x0 b i e

/-! ## The softmax of the relabelled scores -/

/-- The scaled scores: relabelled row i against relabelled row j. -/
theorem scores_apply (x1 x2 : (⟨S2048x64x256, .f32⟩ : BufTy).Contents (Elt Ideal)) (b : Fin 2048) (i j : Fin 64) :
    val_main_v11 (F := Ideal) x1 x2 (ix3 b i j)
      = score scale (fun i e => x2 (ix3 b i e)) (fun j e => x1 (ix3 b j e)) (stride i) (stride j) := by
  rw [val_main_v11_apply, val_main_v9_apply, val_main_v10_apply, val_main_cst_apply]
  unfold score
  show (∑ k : Fin 256, _) * scale = _
  refine congrArg (· * scale) (Finset.sum_congr rfl fun k _ => ?_)
  rw [show lidx_main_v9 (ix3 b i j) k = ix3 b i k from funext fun a => Fin.ext (by match a with | ⟨0, _⟩ => rfl | ⟨1, _⟩ => rfl | ⟨2, _⟩ => rfl),
    show ridx_main_v9 (ix3 b i j) k = ix3 b j k from funext fun a => Fin.ext (by match a with | ⟨0, _⟩ => rfl | ⟨1, _⟩ => rfl | ⟨2, _⟩ => rfl), queries_apply, keys_apply]

/-- Each row's maximum. -/
theorem rowmax_apply (x1 x2 : (⟨S2048x64x256, .f32⟩ : BufTy).Contents (Elt Ideal)) (b : Fin 2048) (i : Fin 64) :
    val_main_v14 (F := Ideal) x1 x2 (ix2 b i) = rowMax negInf (fun j => val_main_v11 (F := Ideal) x1 x2 (ix3 b i j)) := by
  rw [val_main_v14_apply, val_main_v13_apply, val_main_cst_1_apply]
  unfold rowMax
  refine congrArg (max negInf) ?_
  unfold val_main_v12
  exact LibRowMax.host_max_last_apply _ _ reducesTo_S2048x64x64_S2048x64_d2 (by decide) h_S_ b i

theorem rowmax_along_apply (x1 x2 : (⟨S2048x64x256, .f32⟩ : BufTy).Contents (Elt Ideal)) (b : Fin 2048) (i j : Fin 64) :
    val_main_v16 (F := Ideal) x1 x2 (ix3 b i j) = val_main_v14 (F := Ideal) x1 x2 (ix2 b i) := by
  rw [val_main_v16_apply, val_main_v15_apply]
  exact congrArg _ (funext fun a => Fin.ext (by match a with | ⟨0, _⟩ => rfl | ⟨1, _⟩ => rfl))

theorem numers_apply (x1 x2 : (⟨S2048x64x256, .f32⟩ : BufTy).Contents (Elt Ideal)) (b : Fin 2048) (i j : Fin 64) :
    val_main_v18 (F := Ideal) x1 x2 (ix3 b i j) = numer negInf (fun j => val_main_v11 (F := Ideal) x1 x2 (ix3 b i j)) j := by
  rw [val_main_v18_apply, val_main_v17_apply, rowmax_along_apply, rowmax_apply]
  rfl

theorem denom_apply (x1 x2 : (⟨S2048x64x256, .f32⟩ : BufTy).Contents (Elt Ideal)) (b : Fin 2048) (i : Fin 64) :
    val_main_v19 (F := Ideal) x1 x2 (ix2 b i) = ∑ k : Fin 64, numer negInf (fun j => val_main_v11 (F := Ideal) x1 x2 (ix3 b i j)) k := by
  rw [val_main_v19_apply, val_main_cst_2_apply]
  show Ideal.ofBits .f32 0x00000000#32 + _ = _
  rw [Ideal.ofBits_zero_f32, zero_add]
  refine Finset.sum_congr rfl fun k _ => ?_
  rw [show idx_main_v19 (ix2 b i) k = ix3 b i k from funext fun a => Fin.ext (by match a with | ⟨0, _⟩ => rfl | ⟨1, _⟩ => rfl | ⟨2, _⟩ => rfl), numers_apply]

theorem denom_along_apply (x1 x2 : (⟨S2048x64x256, .f32⟩ : BufTy).Contents (Elt Ideal)) (b : Fin 2048) (i j : Fin 64) :
    val_main_v21 (F := Ideal) x1 x2 (ix3 b i j) = val_main_v19 (F := Ideal) x1 x2 (ix2 b i) := by
  rw [val_main_v21_apply, val_main_v20_apply]
  exact congrArg _ (funext fun a => Fin.ext (by match a with | ⟨0, _⟩ => rfl | ⟨1, _⟩ => rfl))

theorem weights_apply (x1 x2 : (⟨S2048x64x256, .f32⟩ : BufTy).Contents (Elt Ideal)) (b : Fin 2048) (i j : Fin 64) :
    val_main_v22 (F := Ideal) x1 x2 (ix3 b i j) = weight negInf (fun j => val_main_v11 (F := Ideal) x1 x2 (ix3 b i j)) j := by
  rw [val_main_v22_apply, numers_apply, denom_along_apply, denom_apply]
  rfl

/-! ## The attended rows -/

/-- Before the rows are relabelled back: row i is plain attention's row `stride i`. -/
theorem relabelled_attention_apply (x0 x1 x2 : (⟨S2048x64x256, .f32⟩ : BufTy).Contents (Elt Ideal)) (b : Fin 2048) (i : Fin 64) (e : Fin 256) :
    val_main_v23 (F := Ideal) x0 x1 x2 (ix3 b i e) = attendedAt x2 x1 x0 b (stride i) e := by
  rw [val_main_v23_apply]
  unfold attendedAt
  refine Eq.trans ?_ (attend_relabel scale negInf (fun i e => x2 (ix3 b i e)) (fun j e => x1 (ix3 b j e)) (fun j e => x0 (ix3 b j e))
    strideEquiv i e)
  unfold attend
  refine Finset.sum_congr rfl fun k _ => ?_
  rw [show lidx_main_v23 (ix3 b i e) k = ix3 b i k from funext fun a => Fin.ext (by match a with | ⟨0, _⟩ => rfl | ⟨1, _⟩ => rfl | ⟨2, _⟩ => rfl),
    show ridx_main_v23 (ix3 b i e) k = ix3 b k e from funext fun a => Fin.ext (by match a with | ⟨0, _⟩ => rfl | ⟨1, _⟩ => rfl | ⟨2, _⟩ => rfl), weights_apply, values_apply]
  have hs : (fun j => val_main_v11 (F := Ideal) x1 x2 (ix3 b i j))
      = score scale (fun i e => x2 (ix3 b (strideEquiv i) e)) (fun j e => x1 (ix3 b (strideEquiv j) e)) i :=
    funext fun j => (scores_apply x1 x2 b i j).trans rfl
  rw [hs]
  rfl

/-- The first result at (b, i, e): attention within sequence b. -/
theorem attended_at (x0 x1 x2 : (⟨S2048x64x256, .f32⟩ : BufTy).Contents (Elt Ideal)) (b : Fin 2048) (i : Fin 64) (e : Fin 256) :
    val_main_v26 (F := Ideal) x0 x1 x2 (ix3 b i e) = attendedAt x2 x1 x0 b i e := by
  refine (restride_apply (val_main_v23 (F := Ideal) x0 x1 x2) b i e).trans ?_
  rw [relabelled_attention_apply, stride_stride]

/-- The first result as a whole array. -/
theorem attended_eq (x0 x1 x2 : (⟨S2048x64x256, .f32⟩ : BufTy).Contents (Elt Ideal)) : val_main_v26 (F := Ideal) x0 x1 x2 = attended x2 x1 x0 := by
  funext I
  obtain ⟨b, i, e, rfl⟩ : ∃ (b : Fin 2048) (i : Fin 64) (e : Fin 256), I = ix3 b i e := ⟨I 0, I 1, I 2, eq_ix3 I⟩
  exact attended_at x0 x1 x2 b i e

/-! ## The layer after attention -/

/-- The attended rows plus the queries, laid out flat. -/
theorem flat_apply (x0 x1 x2 : (⟨S2048x64x256, .f32⟩ : BufTy).Contents (Elt Ideal)) (b : Fin 2048) (p : Fin 16384) :
    val_main_v28 (F := Ideal) x0 x1 x2 (ix2 b p)
      = attendedAt x2 x1 x0 b (tokenOf p) (coordOf p) + x2 (ix3 b (tokenOf p) (coordOf p)) := by
  rw [val_main_v28_apply]
  have hidx : idx_main_v28 (ix2 b p) = ix3 b (tokenOf p) (coordOf p) := funext fun a => Fin.ext (by
    have hp := p.isLt
    have hb := b.isLt
    match a with
    | ⟨0, _⟩ => show (b.val * 16384 + p.val) / 16384 = b.val; omega
    | ⟨1, _⟩ => show (b.val * 16384 + p.val) / 256 % 64 = p.val / 256; omega
    | ⟨2, _⟩ => show (b.val * 16384 + p.val) % 256 = p.val % 256; omega)
  rw [hidx, val_main_v27_apply, attended_at]
  rfl

/-- The second result at (b, h). -/
theorem output_at (x0 x1 x2 : (⟨S2048x64x256, .f32⟩ : BufTy).Contents (Elt Ideal)) (x4 : (⟨S256x16384, .f32⟩ : BufTy).Contents (Elt Ideal))
    (x5 : (⟨S256, .f32⟩ : BufTy).Contents (Elt Ideal)) (b : Fin 2048) (h : Fin 256) :
    val_main_v34 (F := Ideal) x0 x1 x2 x4 x5 (ix2 b h) = outputAt x2 x1 x0 x4 x5 b h := by
  rw [val_main_v34_apply, val_main_v33_apply, val_main_v30_apply, val_main_v32_apply, val_main_v31_apply,
    val_main_call0_v0_apply, val_main_call0_cst_apply]
  unfold outputAt dense
  show max ((∑ k : Fin 16384, _) + x5 _) zero = _
  rw [show idx_main_v31 (idx_main_v32 (ix2 b h)) = ix1 h from funext fun a => Fin.ext (by match a with | ⟨0, _⟩ => rfl)]
  refine congrArg (fun s => max (s + x5 (ix1 h)) zero) (Finset.sum_congr rfl fun p _ => ?_)
  rw [show lidx_main_v30 (ix2 b h) p = ix2 b p from funext fun a => Fin.ext (by match a with | ⟨0, _⟩ => rfl | ⟨1, _⟩ => rfl),
    show ridx_main_v30 (ix2 b h) p = ix2 p h from funext fun a => Fin.ext (by match a with | ⟨0, _⟩ => rfl | ⟨1, _⟩ => rfl), flat_apply, val_main_v29_apply,
    show idx_main_v29 (ix2 p h) = ix2 h p from funext fun a => Fin.ext (by match a with | ⟨0, _⟩ => rfl | ⟨1, _⟩ => rfl)]

/-- The second result as a whole array. -/
theorem output_eq (x0 x1 x2 : (⟨S2048x64x256, .f32⟩ : BufTy).Contents (Elt Ideal)) (x4 : (⟨S256x16384, .f32⟩ : BufTy).Contents (Elt Ideal))
    (x5 : (⟨S256, .f32⟩ : BufTy).Contents (Elt Ideal)) :
    val_main_v34 (F := Ideal) x0 x1 x2 x4 x5 = output x2 x1 x0 x4 x5 := by
  funext J
  obtain ⟨b, h, rfl⟩ : ∃ (b : Fin 2048) (h : Fin 256), J = ix2 b h := ⟨J 0, J 1, eq_ix2 J⟩
  exact output_at x0 x1 x2 x4 x5 b h

end Cert.ReferenceIdeal.RefValue

end
-- ==== Proof.lean ====
/-
  The kernel computes, for 2048 sequences of 64 tokens × 256 coordinates, dense softmax attention within each
  sequence (scores scaled by 1/8, the softmax taken along the keys) and then a layer on the attended rows plus the
  queries: laid out flat, against a [256, 16384] weight matrix, plus a bias, clipped at zero. It handles 16
  sequences per grid point and narrows the operands of its three products to bf16, which is the identity on the
  extended reals. The reference does the same after relabelling the tokens of queries, keys and values by the strided
  order 8a + c ↦ 8c + a, and relabels the attended rows back by the same map.

  Why the two agree on the extended reals: every sum and every maximum in attention runs over ALL tokens of the
  sequence, so attention is equivariant under one relabelling of the tokens (only commutativity and associativity of
  + and max are used, so no finiteness is needed and the precondition is never opened); the strided order is its own
  inverse, so relabelling back gives plain attention. The layer after attention is the same sum over the flat
  position p = 256 · token + coordinate on both sides.

  Both results are stated as ONE pair of whole-array functions of the arguments (`attended`, `output`): the kernel's
  run reaches them block by block (the 128 grid points' blocks tile both results), the reference's run operation by
  operation. `preserves` is trivial: the idealization rewrote nothing.
-/
import proofs.«168151_j75256416960603_2_alg».proof.Defs
import proofs.«168151_j75256416960603_2_alg».proof.Proof.Gen.Kernel
import proofs.«168151_j75256416960603_2_alg».proof.Proof.Gen.Kernel.Frame
import proofs.«168151_j75256416960603_2_alg».proof.Proof.Gen.KernelIdeal
import proofs.«168151_j75256416960603_2_alg».proof.Proof.Gen.KernelIdeal.Frame
import proofs.«168151_j75256416960603_2_alg».proof.Proof.Gen.KernelIdeal.Value
import proofs.«168151_j75256416960603_2_alg».proof.Proof.Gen.ReferenceIdeal
import proofs.«168151_j75256416960603_2_alg».proof.Proof.Gen.ReferenceIdeal.Run
import proofs.«168151_j75256416960603_2_alg».proof.Proof.Gen.ReferenceIdeal.Read
import proofs.«168151_j75256416960603_2_alg».proof.Proof.Gen.Pre_finite_inputs
import proofs.«168151_j75256416960603_2_alg».proof.Proof.KernelArray
import proofs.«168151_j75256416960603_2_alg».proof.Proof.ReferenceValue
import Idealize.ShloMosaic.Adequacy
import Idealize.ShloMosaic.Init

noncomputable section

namespace Cert.Proof

open Idealize.ShloMosaic Idealize.ShloMosaic.TcCoe Idealize.SL.Sem Cert.DenseAttention

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with `output` and `attended` of the (agreeing) arguments. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ?_) (Cert.ReferenceIdeal.Value.run (F := Ideal) m' ρ')
  obtain ⟨a0, a1, a2, -, a4, a5⟩ := hagree c
  refine ⟨?_, ?_, (h c).2.2⟩
  · refine (h c).1.trans ((Cert.ReferenceIdeal.Read.val_main_v34_eq m' c).trans
      ((Cert.ReferenceIdeal.RefValue.output_eq _ _ _ _ _).trans ?_))
    rw [a0, a1, a2, a4, a5]
  · refine (h c).2.1.trans ((Cert.ReferenceIdeal.Read.val_main_v26_eq _ _ _).trans
      ((Cert.ReferenceIdeal.RefValue.attended_eq _ _ _).trans ?_))
    rw [a0, a1, a2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
